-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x60 : Shape := ⟨2, ![131072, 60]⟩
abbrev S256x60 : Shape := ⟨2, ![256, 60]⟩
abbrev S256 : Shape := ⟨1, ![256]⟩
abbrev S360x256 : Shape := ⟨2, ![360, 256]⟩
abbrev S_ : Shape := ⟨0, ![]⟩

class Facts : Prop where
  bcast_S_S131072x60 : S_.BroadcastsInDim S131072x60 (![] : Fin 0 → Fin S131072x60.rank)
  reducesTo_S131072x60_S_d0_1 : S131072x60.ReducesTo [0, 1] S_
  h_S_ : 0 < S_.numel
  bcast_S_S256x60 : S_.BroadcastsInDim S256x60 (![] : Fin 0 → Fin S256x60.rank)
  reducesTo_S256x60_S_d0_1 : S256x60.ReducesTo [0, 1] S_
  bcast_S_S256 : S_.BroadcastsInDim S256 (![] : Fin 0 → Fin S256.rank)
  reducesTo_S256_S_d0 : S256.ReducesTo [0] S_
  bcast_S_S360x256 : S_.BroadcastsInDim S360x256 (![] : Fin 0 → Fin S360x256.rank)
  reducesTo_S360x256_S_d0_1 : S360x256.ReducesTo [0, 1] S_

variable [Facts]

def fn_part1 {F : FTy → Type} [FloatOps F] (main_v13 : IVec S_ 1) (main_v16 : IVec S360x256 1) : IVec S_ 1 :=
  let main_c_5 : IVec S_ 1 := constantI S_ 1 1#1
  let main_v17 : IVec S_ 1 := (fun x v => Host.reduce IntOp.andi x v reducesTo_S360x256_S_d0_1 h_S_) main_v16 main_c_5
  let main_v18 : IVec S_ 1 := andi main_v13 main_v17
  main_v18

def fn {F : FTy → Type} [FloatOps F] (main_arg0 : FVec F S131072x60 .f32) (main_arg1 : FVec F S256x60 .f32) (main_arg2 : FVec F S256 .f32) (main_arg3 : FVec F S360x256 .f32) : IVec S_ 1 :=
  let main_v0 : FVec F S131072x60 .f32 := Host.absf main_arg0
  let main_cst : FVec F S_ .f32 := constant S_ .f32 0x7F800000#32
  let main_v1 : FVec F S131072x60 .f32 := broadcastInDim S131072x60 ![] bcast_S_S131072x60 main_cst
  let main_v2 : IVec S131072x60 1 := cmpf .olt main_v0 main_v1
  let main_c : IVec S_ 1 := constantI S_ 1 1#1
  let main_v3 : IVec S_ 1 := (fun x v => Host.reduce IntOp.andi x v reducesTo_S131072x60_S_d0_1 h_S_) main_v2 main_c
  let main_v4 : FVec F S256x60 .f32 := Host.absf main_arg1
  let main_cst_0 : FVec F S_ .f32 := constant S_ .f32 0x7F800000#32
  let main_v5 : FVec F S256x60 .f32 := broadcastInDim S256x60 ![] bcast_S_S256x60 main_cst_0
  let main_v6 : IVec S256x60 1 := cmpf .olt main_v4 main_v5
  let main_c_1 : IVec S_ 1 := constantI S_ 1 1#1
  let main_v7 : IVec S_ 1 := (fun x v => Host.reduce IntOp.andi x v reducesTo_S256x60_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S360x256 .f32 := Host.absf main_arg3
  let main_cst_4 : FVec F S_ .f32 := constant S_ .f32 0x7F800000#32
  let main_v15 : FVec F S360x256 .f32 := broadcastInDim S360x256 ![] bcast_S_S360x256 main_cst_4
  let main_v16 : IVec S360x256 1 := cmpf .olt main_v14 main_v15
  fn_part1 (F := F) main_v13 main_v16
-- ==== Kernel.lean ====
abbrev S131072x60 : Shape := ⟨2, ![131072, 60]⟩
abbrev S256x60 : Shape := ⟨2, ![256, 60]⟩
abbrev S256 : Shape := ⟨1, ![256]⟩
abbrev S360x256 : Shape := ⟨2, ![360, 256]⟩
abbrev S360 : Shape := ⟨1, ![360]⟩
abbrev S_ : Shape := ⟨0, ![]⟩
abbrev S360x1 : Shape := ⟨2, ![360, 1]⟩
abbrev S256x360 : Shape := ⟨2, ![256, 360]⟩
abbrev S1x256 : Shape := ⟨2, ![1, 256]⟩
abbrev S131072x360 : Shape := ⟨2, ![131072, 360]⟩
abbrev S131072x30x12 : Shape := ⟨3, ![131072, 30, 12]⟩
abbrev S8192x60 : Shape := ⟨2, ![8192, 60]⟩
abbrev S8192x360 : Shape := ⟨2, ![8192, 360]⟩
abbrev S8192 : Shape := ⟨1, ![8192]⟩
abbrev S8192x1 : Shape := ⟨2, ![8192, 1]⟩
abbrev S60x256 : Shape := ⟨2, ![60, 256]⟩
abbrev S8192x256 : Shape := ⟨2, ![8192, 256]⟩

abbrev nBuf : Space → Nat
  | .hbm => 25
  | .vmem => 8
  | .smem => 0
  | _ => 0

abbrev bufTy : (tb : Table) → Fin (tcTables nBuf tb) → BufTy
  | .hbm, ⟨0, _⟩ => ⟨S131072x60, .f32⟩
  | .hbm, ⟨1, _⟩ => ⟨S256x60, .f32⟩
  | .hbm, ⟨2, _⟩ => ⟨S256, .f32⟩
  | .hbm, ⟨3, _⟩ => ⟨S360x256, .f32⟩
  | .hbm, ⟨4, _⟩ => ⟨S360, .i32⟩
  | .hbm, ⟨5, _⟩ => ⟨S_, .i32⟩
  | .hbm, ⟨6, _⟩ => ⟨S360, .i32⟩
  | .hbm, ⟨7, _⟩ => ⟨S360, .i1⟩
  | .hbm, ⟨8, _⟩ => ⟨S_, .i32⟩
  | .hbm, ⟨9, _⟩ => ⟨S360, .i32⟩
  | .hbm, ⟨10, _⟩ => ⟨S360, .i32⟩
  | .hbm, ⟨11, _⟩ => ⟨S360, .i32⟩
  | .hbm, ⟨12, _⟩ => ⟨S360x1, .i32⟩
  | .hbm, ⟨13, _⟩ => ⟨S360x256, .f32⟩
  | .hbm, ⟨14, _⟩ => ⟨S256x360, .f32⟩
  | .hbm, ⟨15, _⟩ => ⟨S256x360, .bf16⟩
  | .hbm, ⟨16, _⟩ => ⟨S256x60, .f32⟩
  | .hbm, ⟨17, _⟩ => ⟨S_, .f32⟩
  | .hbm, ⟨18, _⟩ => ⟨S256, .f32⟩
  | .hbm, ⟨19, _⟩ => ⟨S1x256, .f32⟩
  | .hbm, ⟨20, _⟩ => ⟨S256, .f32⟩
  | .hbm, ⟨21, _⟩ => ⟨S256, .f32⟩
  | .hbm, ⟨22, _⟩ => ⟨S1x256, .f32⟩
  | .hbm, ⟨23, _⟩ => ⟨S131072x360, .f32⟩
  | .hbm, ⟨24, _⟩ => ⟨S131072x30x12, .f32⟩
  | .local _ .vmem, ⟨0, _⟩ => ⟨S8192x60, .f32⟩
  | .local _ .vmem, ⟨1, _⟩ => ⟨S8192x60, .f32⟩
  | .local _ .vmem, ⟨2, _⟩ => ⟨S256x60, .f32⟩
  | .local _ .vmem, ⟨3, _⟩ => ⟨S1x256, .f32⟩
  | .local _ .vmem, ⟨4, _⟩ => ⟨S1x256, .f32⟩
  | .local _ .vmem, ⟨5, _⟩ => ⟨S256x360, .bf16⟩
  | .local _ .vmem, ⟨6, _⟩ => ⟨S8192x360, .f32⟩
  | .local _ .vmem, ⟨7, _⟩ => ⟨S8192x360, .f32⟩
  | _, _ => ⟨S131072x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_c_1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_cst : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x360 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x360 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S360 : S_.BroadcastsInDim S360 (![] : Fin 0 → Fin S360.rank)
  bcast_S360_S360x1_0 : S360.BroadcastsInDim S360x1 (![0] : Fin 1 → Fin S360x1.rank)
  transposes_S360x256_S256x360_1_0 : S360x256.Transposes [1, 0] S256x360
  bitsLt_bf16_f32 : FTy.bits .bf16 < FTy.bits .f32
  reducesTo_S256x60_S256_d1 : S256x60.ReducesTo [1] S256
  h_S_ : 0 < S_.numel
  shapeCasts_S256_S1x256 : S256.ShapeCasts S1x256
  shapeCasts_S131072x360_S131072x30x12 : S131072x360.ShapeCasts S131072x30x12
  inb_S8192x60_S8192x60_0_0 : ∀ a, (![0, 0] : Fin 2 → Nat) a + S8192x60.size a ≤ S8192x60.size a
  h_S8192x60 : 0 < S8192x60.numel
  inb_S256x60_S256x60_0_0 : ∀ a, (![0, 0] : Fin 2 → Nat) a + S256x60.size a ≤ S256x60.size a
  h_S256x60 : 0 < S256x60.numel
  reduces_S8192x60_S8192 : S8192x60.Reduces [1] S8192
  shapeCasts_S8192_S8192x1 : S8192.ShapeCasts S8192x1
  transposes_S256x60_p1_0_S60x256 : S256x60.Transposes [1, 0] S60x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S8192x1_S8192x256 : S8192x1.Broadcasts S8192x256
  broadcasts_S1x256_S8192x256 : S1x256.Broadcasts S8192x256
  inb_S256x360_S256x360_0_0 : ∀ a, (![0, 0] : Fin 2 → Nat) a + S256x360.size a ≤ S256x360.size a
  h_S256x360 : 0 < S256x360.numel
  shapeCasts_S256x360_S256x360 : S256x360.ShapeCasts S256x360
  inb_S8192x360_S8192x360_0_0 : ∀ a, (![0, 0] : Fin 2 → Nat) a + S8192x360.size a ≤ S8192x360.size a
  h_S8192x360 : 0 < S8192x360.numel
  gather_S360x256_S360x1_S360x256_1_0_n_n_0_1_1256_wf : GatherDims.WF S360x256 S360x1 S360x256 [1] [0] [] [0] [] 1 ![1, 256]
  dot_S8192x60_S60x256_S8192x256_1_0_0_1_n_n_wf : DotDims.WF S8192x60 S60x256 S8192x256 [1] [0] [0] [1] [] []
  dot_S8192x256_S256x360_S8192x360_1_0_0_1_n_n_wf : DotDims.WF S8192x256 S256x360 S8192x360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x60.size a ≤ S131072x60.size a
  hwx0_0 : ∀ i : grid0.Coords, EltTy.bits .f32 = 32 ∨ (Rect.block (s := S131072x60) S8192x60.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x60.size a ≤ S256x60.size a
  hwx0_1 : ∀ i : grid0.Coords, EltTy.bits .f32 = 32 ∨ (Rect.block (s := S256x60) S256x60.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x360.size a ≤ S256x360.size a
  hwx0_4 : ∀ i : grid0.Coords, EltTy.bits .bf16 = 32 ∨ (Rect.block (s := S256x360) S256x360.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x360.size a ≤ S131072x360.size a
  hwx0_5 : ∀ i : grid0.Coords, EltTy.bits .f32 = 32 ∨ (Rect.block (s := S131072x360) S8192x360.size (cc0_transform_5 i) (hinb0_5 i)).WholeWords (EltTy.packing .f32)

variable [Facts₀]

def gather_S360x256_S360x1_S360x256_1_0_n_n_0_1_1256 : GatherDims S360x256 S360x1 S360x256 where
  offsetDims := [1]
  collapsedSliceDims := [0]
  operandBatchingDims := []
  startIndicesBatchingDims := []
  startIndexMap := [0]
  indexVectorDim := 1
  sliceSizes := ![1, 256]
  wf := gather_S360x256_S360x1_S360x256_1_0_n_n_0_1_1256_wf
def dot_S8192x60_S60x256_S8192x256_1_0_0_1_n_n : DotDims S8192x60 S60x256 S8192x256 where
  lhsContracting := [1]
  rhsContracting := [0]
  lhsNonContracting := [0]
  rhsNonContracting := [1]
  lhsBatch := []
  rhsBatch := []
  wf := dot_S8192x60_S60x256_S8192x256_1_0_0_1_n_n_wf
def dot_S8192x256_S256x360_S8192x360_1_0_0_1_n_n : DotDims S8192x256 S256x360 S8192x360 where
  lhsContracting := [1]
  rhsContracting := [0]
  lhsNonContracting := [0]
  rhsNonContracting := [1]
  lhsBatch := []
  rhsBatch := []
  wf := dot_S8192x256_S256x360_S8192x360_1_0_0_1_n_n_wf

abbrev win0_0 : Pipeline.Window sig grid0 :=
  Pipeline.Window.ofSpec (Memref.whole main_arg0) S8192x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S256x360.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S8192x360.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x60 : Shape := ⟨2, ![131072, 60]⟩
abbrev S256x60 : Shape := ⟨2, ![256, 60]⟩
abbrev S256 : Shape := ⟨1, ![256]⟩
abbrev S360x256 : Shape := ⟨2, ![360, 256]⟩
abbrev S_ : Shape := ⟨0, ![]⟩
abbrev S131072 : Shape := ⟨1, ![131072]⟩
abbrev S131072x1 : Shape := ⟨2, ![131072, 1]⟩
abbrev S131072x256 : Shape := ⟨2, ![131072, 256]⟩
abbrev S1x256 : Shape := ⟨2, ![1, 256]⟩
abbrev S131072x360 : Shape := ⟨2, ![131072, 360]⟩
abbrev S131072x10x12x3 : Shape := ⟨4, ![131072, 10, 12, 3]⟩
abbrev S131072x10x3x12 : Shape := ⟨4, ![131072, 10, 3, 12]⟩
abbrev S131072x30x12 : Shape := ⟨3, ![131072, 30, 12]⟩

abbrev nBuf : Space → Nat
  | .hbm => 33
  | .vmem => 0
  | .smem => 0
  | _ => 0

abbrev bufTy : (tb : Table) → Fin (tcTables nBuf tb) → BufTy
  | .hbm, ⟨0, _⟩ => ⟨S131072x60, .f32⟩
  | .hbm, ⟨1, _⟩ => ⟨S256x60, .f32⟩
  | .hbm, ⟨2, _⟩ => ⟨S256, .f32⟩
  | .hbm, ⟨3, _⟩ => ⟨S360x256, .f32⟩
  | .hbm, ⟨4, _⟩ => ⟨S131072x60, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S256x60, .f32⟩
  | .hbm, ⟨9, _⟩ => ⟨S_, .f32⟩
  | .hbm, ⟨10, _⟩ => ⟨S256, .f32⟩
  | .hbm, ⟨11, _⟩ => ⟨S131072x256, .f32⟩
  | .hbm, ⟨12, _⟩ => ⟨S1x256, .f32⟩
  | .hbm, ⟨13, _⟩ => ⟨S131072x256, .f32⟩
  | .hbm, ⟨14, _⟩ => ⟨S131072x256, .f32⟩
  | .hbm, ⟨15, _⟩ => ⟨S131072x256, .f32⟩
  | .hbm, ⟨16, _⟩ => ⟨S_, .f32⟩
  | .hbm, ⟨17, _⟩ => ⟨S131072x256, .f32⟩
  | .hbm, ⟨18, _⟩ => ⟨S131072x256, .f32⟩
  | .hbm, ⟨19, _⟩ => ⟨S131072x256, .f32⟩
  | .hbm, ⟨20, _⟩ => ⟨S_, .f32⟩
  | .hbm, ⟨21, _⟩ => ⟨S131072x256, .f32⟩
  | .hbm, ⟨22, _⟩ => ⟨S131072x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S131072x256, .f32⟩
  | .hbm, ⟨27, _⟩ => ⟨S131072x256, .f32⟩
  | .hbm, ⟨28, _⟩ => ⟨S131072x256, .f32⟩
  | .hbm, ⟨29, _⟩ => ⟨S131072x360, .f32⟩
  | .hbm, ⟨30, _⟩ => ⟨S131072x10x12x3, .f32⟩
  | .hbm, ⟨31, _⟩ => ⟨S131072x10x3x12, .f32⟩
  | .hbm, ⟨32, _⟩ => ⟨S131072x30x12, .f32⟩
  | _, _ => ⟨S131072x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S131072x60_S131072_d1 : S131072x60.ReducesTo [1] S131072
  h_S_ : 0 < S_.numel
  bcast_S131072_S131072x1_0 : S131072.BroadcastsInDim S131072x1 (![0] : Fin 1 → Fin S131072x1.rank)
  reducesTo_S256x60_S256_d1 : S256x60.ReducesTo [1] S256
  bcast_S256_S1x256_1 : S256.BroadcastsInDim S1x256 (![1] : Fin 1 → Fin S1x256.rank)
  bcast_S131072x1_S131072x256_0_1 : S131072x1.BroadcastsInDim S131072x256 (![0, 1] : Fin 2 → Fin S131072x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  shapeCasts_S131072x360_S131072x10x12x3 : S131072x360.ShapeCasts S131072x10x12x3
  transposes_S131072x10x12x3_S131072x10x3x12_0_1_3_2 : S131072x10x12x3.Transposes [0, 1, 3, 2] S131072x10x3x12
  shapeCasts_S131072x10x3x12_S131072x30x12 : S131072x10x3x12.ShapeCasts S131072x30x12
  dot_S131072x60_S256x60_S131072x256_1_1_0_0_n_n_wf : DotDims.WF S131072x60 S256x60 S131072x256 [1] [1] [0] [0] [] []
  dot_S131072x256_S360x256_S131072x360_1_1_0_0_n_n_wf : DotDims.WF S131072x256 S360x256 S131072x360 [1] [1] [0] [0] [] []

variable [Facts₀]

def dot_S131072x60_S256x60_S131072x256_1_1_0_0_n_n : DotDims S131072x60 S256x60 S131072x256 where
  lhsContracting := [1]
  rhsContracting := [1]
  lhsNonContracting := [0]
  rhsNonContracting := [0]
  lhsBatch := []
  rhsBatch := []
  wf := dot_S131072x60_S256x60_S131072x256_1_1_0_0_n_n_wf
def dot_S131072x256_S360x256_S131072x360_1_1_0_0_n_n : DotDims S131072x256 S360x256 S131072x360 where
  lhsContracting := [1]
  rhsContracting := [1]
  lhsNonContracting := [0]
  rhsNonContracting := [0]
  lhsBatch := []
  rhsBatch := []
  wf := dot_S131072x256_S360x256_S131072x360_1_1_0_0_n_n_wf

class Facts : Prop extends Facts₀ where

variable [Facts]
-- ==== Proof.Spec.lean ====
/-
  The layer this certificate is about, as one function of its four arrays.

  For a sample row x ∈ ℝ^60, centres C ∈ ℝ^{256×60}, widths σ ∈ ℝ^256 and weights W ∈ ℝ^{360×256}:

    d²(x, c)   = max (‖x‖² + ‖c‖² − 2 ⟨x, c⟩, 0)           (the squared distance, expanded, clamped at zero)
    φ_h(x)     = exp (−σ_h² · d²(x, C_h))                    (the Gaussian response of unit h)
    out_o(x)   = Σ_h φ_h(x) · W[o, h]                         (360 mixed features)

  and the 360 features of a sample are finally laid out as a 30 × 12 table whose entry (r, q) is feature
  36·(r / 3) + 3·q + r % 3: the table is the [10, 12, 3] view of the features with its last two axes exchanged,
  flattened to [30, 12].  Everything is read on the extended reals; the constants 2 and 0 are kept as the
  words that denote them (only the zero word is ever evaluated).
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The word of the literal 2.0, as an extended real. -/
abbrev two : EReal := Ideal.ofBits .f32 0x40000000#32

/-- The Gaussian response of one unit with centre `cr` and width `s` to the row `xr`:
    `exp (−s² · max (‖xr‖² + ‖cr‖² − 2⟨xr, cr⟩, 0))`. -/
def gauss (xr cr : Fin 60 → EReal) (s : EReal) : EReal :=
  Ideal.exp (-(s * s) * max ((∑ d : Fin 60, xr d * xr d) + (∑ d : Fin 60, cr d * cr d) - two * ∑ d : Fin 60, xr d * cr d) 0)

/-- One mixed feature of a row: the responses of the 256 units weighted by one row of the weight matrix. -/
def mix (xr : Fin 60 → EReal) (C : Fin 256 → Fin 60 → EReal) (S : Fin 256 → EReal) (wr : Fin 256 → EReal) : EReal :=
  ∑ h : Fin 256, gauss xr (C h) (S h) * wr h

/-- The feature that entry (r, q) of a sample's 30 × 12 table shows. -/
def srcRow (r : Fin 30) (q : Fin 12) : Fin 360 :=
  ⟨r.val / 3 * 36 + q.val * 3 + r.val % 3, by have := r.isLt; have := q.isLt; omega⟩

/-- The same rule on the flat position o = 12·r + q of the table entry. -/
def srcFlat (o : Fin 360) : Fin 360 :=
  ⟨o.val / 36 * 36 + o.val % 12 * 3 + o.val / 12 % 3, by have := o.isLt; omega⟩

theorem srcFlat_flat (r : Fin 30) (q : Fin 12) (o : Fin 360) (ho : o.val = r.val * 12 + q.val) : srcFlat o = srcRow r q := by
  apply Fin.ext
  show o.val / 36 * 36 + o.val % 12 * 3 + o.val / 12 % 3 = r.val / 3 * 36 + q.val * 3 + r.val % 3
  have := r.isLt; have := q.isLt
  omega

/-- Row `b` of the sample matrix. -/
abbrev rowOf (x : (⟨2, ![131072, 60]⟩ : Shape).Idx → EReal) (b : Fin 131072) : Fin 60 → EReal := fun d => x (ix2 b d)
/-- The centres by unit. -/
abbrev centresOf (c : (⟨2, ![256, 60]⟩ : Shape).Idx → EReal) : Fin 256 → Fin 60 → EReal := fun h d => c (ix2 h d)
/-- The widths by unit. -/
abbrev widthsOf (s : (⟨1, ![256]⟩ : Shape).Idx → EReal) : Fin 256 → EReal := fun h => s (ix1 h)
/-- Row `o` of the weight matrix. -/
abbrev weightsOf (W : (⟨2, ![360, 256]⟩ : Shape).Idx → EReal) (o : Fin 360) : Fin 256 → EReal := fun h => W (ix2 o h)

/-- The 131072 × 360 array of mixed features in TABLE ORDER: column o holds feature `srcFlat o`. -/
def features (x : (⟨2, ![131072, 60]⟩ : Shape).Idx → EReal) (c : (⟨2, ![256, 60]⟩ : Shape).Idx → EReal)
    (s : (⟨1, ![256]⟩ : Shape).Idx → EReal) (W : (⟨2, ![360, 256]⟩ : Shape).Idx → EReal) :
    (⟨2, ![131072, 360]⟩ : Shape).Idx → EReal :=
  fun i => mix (rowOf x (i 0)) (centresOf c) (widthsOf s) (weightsOf W (srcFlat (i 1)))

/-- The layer's result: entry (b, r, q) is feature `srcRow r q` of sample b. -/
def layer (x : (⟨2, ![131072, 60]⟩ : Shape).Idx → EReal) (c : (⟨2, ![256, 60]⟩ : Shape).Idx → EReal)
    (s : (⟨1, ![256]⟩ : Shape).Idx → EReal) (W : (⟨2, ![360, 256]⟩ : Shape).Idx → EReal) :
    (⟨3, ![131072, 30, 12]⟩ : Shape).Idx → EReal :=
  fun i => mix (rowOf x (i 0)) (centresOf c) (widthsOf s) (weightsOf W (srcRow (i 1) (i 2)))

/-- An index of a matrix with given coordinates is `ix2` of them. -/
theorem ix2_of_vals {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a vector with a given coordinate is `ix1` of it. -/
theorem ix1_of_val {n : Nat} (j : (⟨1, ![n]⟩ : Shape).Idx) (a : Fin n) (h0 : (j 0).val = a.val) : j = ix1 a :=
  funext fun d => Fin.ext (by match d with | ⟨0, _⟩ => exact h0)

end Cert.Rbf

end
-- ==== Proof.RefSide.lean ====
/-
  The reference program's result is the layer of Spec.lean, entry by entry.

  The reference computes ‖x‖², ‖c‖² (each a host sum started from the zero word), the cross products by one
  contraction, the clamped expansion, the Gaussian, one contraction against the weight matrix, and then views the
  360 features of each sample as [10, 12, 3], exchanges the last two axes and flattens to [30, 12].  Read at entry
  (b, r, q) through the generated stage lemmas, the three layout steps land on feature 36·(r/3) + 3·q + r%3 of
  sample b; the rest is the definition of `gauss` with the two zero words removed (0 + s = s).
-/
import proofs.«136110_j66649302499334_2_alg».proof.Proof.Gen.ReferenceIdeal.Read
import proofs.«136110_j66649302499334_2_alg».proof.Proof.Spec

noncomputable section

open scoped BigOperators

namespace Cert.ReferenceIdeal.RefValue

open Cert.ReferenceIdeal Cert.ReferenceIdeal.Read Idealize.ShloMosaic Idealize.ShloMosaic.ValueIdx Cert.Rbf

/-- The reference's Gaussian stage at (b, h) is the response of unit h to sample b. -/
theorem response (x0 : (⟨S131072x60, .f32⟩ : BufTy).Contents (Elt Ideal)) (x1 : (⟨S256x60, .f32⟩ : BufTy).Contents (Elt Ideal))
    (x2 : (⟨S256, .f32⟩ : BufTy).Contents (Elt Ideal)) (b : Fin 131072) (h : Fin 256) :
    val_main_v20 (F := Ideal) x0 x1 x2 (ix2 b h) = gauss (rowOf x0 b) (centresOf x1 h) (widthsOf x2 h) := by
  have e1 : idx_main_v15 (idx_main_v18 (ix2 b h)) = ix1 h := ix1_of_val _ _ rfl
  have e2 : ∀ k : Fin 60, idx_main_v1 (idx_main_v2 (idx_main_v7 (ix2 b h))) k = ix2 b k := fun k => ix2_of_vals _ _ _ rfl rfl
  have e3 : ∀ k : Fin 60, idx_main_v4 (idx_main_v6 (idx_main_v8 (ix2 b h))) k = ix2 h k := fun k => ix2_of_vals _ _ _ rfl rfl
  have e4 : ∀ k : Fin 60, lidx_main_v5 (ix2 b h) k = ix2 b k := fun k => ix2_of_vals _ _ _ rfl rfl
  have e5 : ∀ k : Fin 60, ridx_main_v5 (ix2 b h) k = ix2 h k := fun k => ix2_of_vals _ _ _ rfl rfl
  simp only [val_main_v20_apply, val_main_v19_apply, val_main_v18_apply, val_main_v17_apply, val_main_v16_apply,
    val_main_v15_apply, val_main_v14_apply, val_main_v13_apply, val_main_cst_2_apply, val_main_v12_apply,
    val_main_v11_apply, val_main_v10_apply, val_main_cst_1_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, e1, e2, e3, e4, e5,
    Ideal.mulf_def, Ideal.addf_def, Ideal.subf_def, Ideal.maximumf_def, Ideal.hostUnary_exp_def, Ideal.hostNegf_def,
    Ideal.negf_def, Ideal.ofBits_def, Ideal.ofBits_zero_f32, zero_add]
  rfl

/-- The arithmetic of the three layout steps: the flat position of entry (r, q) of sample b in the [30, 12] table,
    cut as [10, 3, 12], re-read with the last two coordinates exchanged as [10, 12, 3], is position
    36·(r/3) + 3·q + r%3 of sample b's 360 features. -/
theorem flat_arith (b r q : ℕ) (hr : r < 30) (hq : q < 12) :
    ((((b * 30 + r) * 12 + q) / 360 * 10 + ((b * 30 + r) * 12 + q) / 36 % 10) * 12 + ((b * 30 + r) * 12 + q) % 12) * 3
        + ((b * 30 + r) * 12 + q) / 12 % 3
      = b * 360 + (r / 3 * 36 + q * 3 + r % 3) := by
  have h1 : ((b * 30 + r) * 12 + q) / 360 = b := by omega
  have h2 : ((b * 30 + r) * 12 + q) / 36 % 10 = r / 3 := by omega
  have h3 : ((b * 30 + r) * 12 + q) % 12 = q := by omega
  have h4 : ((b * 30 + r) * 12 + q) / 12 % 3 = r % 3 := by omega
  rw [h1, h2, h3, h4]
  omega

/-- The three layout steps after the second contraction: entry (b, r, q) of the result reads the contraction's
    row b, and column 36·(r/3) + 3·q + r%3. -/
theorem layout_row (b : Fin 131072) (r : Fin 30) (q : Fin 12) (h : Fin 256) :
    lidx_main_v21 (idx_main_v22 (idx_main_v23 (idx_main_v24 (ix3 b r q)))) h = ix2 b h := by
  refine ix2_of_vals _ _ _ ?_ rfl
  have hr := r.isLt; have hq := q.isLt
  show (((((b.val * 30 + r.val) * 12 + q.val) / 360 * 10 + ((b.val * 30 + r.val) * 12 + q.val) / 36 % 10) * 12
      + ((b.val * 30 + r.val) * 12 + q.val) % 12) * 3 + ((b.val * 30 + r.val) * 12 + q.val) / 12 % 3) / 360 = b.val
  rw [flat_arith b.val r.val q.val hr hq]
  omega

theorem layout_col (b : Fin 131072) (r : Fin 30) (q : Fin 12) (h : Fin 256) :
    ridx_main_v21 (idx_main_v22 (idx_main_v23 (idx_main_v24 (ix3 b r q)))) h = ix2 (srcRow r q) h := by
  refine ix2_of_vals _ _ _ ?_ rfl
  have hr := r.isLt; have hq := q.isLt
  show (((((b.val * 30 + r.val) * 12 + q.val) / 360 * 10 + ((b.val * 30 + r.val) * 12 + q.val) / 36 % 10) * 12
      + ((b.val * 30 + r.val) * 12 + q.val) % 12) * 3 + ((b.val * 30 + r.val) * 12 + q.val) / 12 % 3) % 360
      = r.val / 3 * 36 + q.val * 3 + r.val % 3
  rw [flat_arith b.val r.val q.val hr hq]
  omega

/-- The reference's result array is the layer. -/
theorem result_eq (x0 : (⟨S131072x60, .f32⟩ : BufTy).Contents (Elt Ideal)) (x1 : (⟨S256x60, .f32⟩ : BufTy).Contents (Elt Ideal))
    (x2 : (⟨S256, .f32⟩ : BufTy).Contents (Elt Ideal)) (x3 : (⟨S360x256, .f32⟩ : BufTy).Contents (Elt Ideal)) :
    val_main_v24 (F := Ideal) x0 x1 x2 x3 = layer x0 x1 x2 x3 := by
  funext i
  obtain ⟨b, r, q, rfl⟩ : ∃ (b : Fin 131072) (r : Fin 30) (q : Fin 12), i = ix3 b r q := ⟨i 0, i 1, i 2, eq_ix3 i⟩
  rw [val_main_v24_apply, val_main_v23_apply, val_main_v22_apply, val_main_v21_apply]
  unfold layer mix
  refine Finset.sum_congr rfl fun h _ => ?_
  rw [layout_row, layout_col, response]

end Cert.ReferenceIdeal.RefValue

end
-- ==== Proof.LibGatherRows.lean ====
/-
  A gather of whole rows of a matrix, read at an index.

  `x[idx, :]` for a matrix `x : [N, C]` and an integer vector `idx` of `R` row numbers lowers to a gather whose
  start indices are `idx` viewed as `[R, 1]`, with the row axis collapsed, the column axis an offset axis of full
  width, and the index vector on the last axis.  Entry (o, h) of the result is `x` at row `idx[o, 0]` — read as a
  signed integer and clamped into [0, N − 1], as every gather start index is — and column `h`.
-/
import Idealize.ShloMosaic.Lib.ValueIdx

namespace Cert.LibGatherRows

open Idealize.ShloMosaic Idealize.ShloMosaic.ValueIdx

variable {α : Type}

/-- The dimension numbers of a whole-row gather for an operand `[N, C]`, start indices `[R, 1]` and a result `[R, C]`;
    their conditions `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(o, h)`: the operand at row `idx[o, 0]` (signed, clamped into `[0, N − 1]`), column `h`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (o : Fin R) (h : Fin C) :
    Host.gather (rowsDims N C R wf) x idx (ix2 o h)
      = x (ix2 ⟨min (idx (ix2 o (0 : Fin 1))).toInt.toNat (N - 1), by omega⟩ h) := by
  unfold Host.gather
  refine congrArg x (funext fun a => Fin.ext ?_)
  match a with
  | ⟨0, _⟩ =>
    show (rowsDims N C R wf).start (ix2 o h) idx 0 + (rowsDims N C R wf).batchCoord (ix2 o h) 0
        + (rowsDims N C R wf).offCoord (ix2 o h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 o h) ⟨List.idxOf (0 : Fin 2) (rowsDims N C R wf).startIndexMap,
        List.idxOf_lt_length_iff.2 (List.mem_singleton.mpr rfl)⟩ = ix2 o (0 : Fin 1) := by
      funext b; refine Fin.ext ?_
      match b with
      | ⟨0, _⟩ => rfl
      | ⟨1, _⟩ => rfl
    rw [hsi]
    rfl
  | ⟨1, _⟩ =>
    show (rowsDims N C R wf).start (ix2 o h) idx 1 + (rowsDims N C R wf).batchCoord (ix2 o h) 1
        + (rowsDims N C R wf).offCoord (ix2 o h) 1 = h.val
    rw [GatherDims.batchCoord_eq_zero _ _ _ List.not_mem_nil]
    have hs : (rowsDims N C R wf).start (ix2 o h) idx 1 = 0 := by
      unfold GatherDims.start
      rw [dif_neg (show ¬ (1 : Fin 2) ∈ ([0] : List (Fin 2)) from by decide)]
    rw [hs]
    have ho : (rowsDims N C R wf).offCoord (ix2 o h) 1 = h.val := by
      unfold GatherDims.offCoord
      rw [dif_pos ((GatherDims.mem_sKept (rowsDims N C R wf) 1).mpr
        ⟨show ¬ (1 : Fin 2) ∈ ([0] : List (Fin 2)) from by decide, List.not_mem_nil⟩)]
      rfl
    rw [ho]
    omega

end Cert.LibGatherRows
-- ==== Proof.Table.lean ====
/-
  The row table of the weight matrix.

  The kernel's host code reorders the rows of the weight matrix by a table of 360 row numbers, so that the raw
  [·, 360] result of its second contraction is already in table order.  The table is a literal; entry o is
  36·(o / 36) + 3·(o % 12) + (o / 12) % 3.  Before the gather each entry e is normalised as a possibly negative
  index (e + 360 where e < 0, else e), and the gather clamps it into [0, 359]: none of that moves an entry, since
  all lie in [0, 359].  Both facts are decided over the 360 entries.
-/
import proofs.«136110_j66649302499334_2_alg».proof.KernelIdeal
import proofs.«136110_j66649302499334_2_alg».proof.Proof.Spec

namespace Cert.KernelIdeal.Table

open Idealize.ShloMosaic Cert.KernelIdeal Cert.Rbf

/-- Entry `o` of the table, after the sign normalisation and the gather's clamp, is `srcFlat o`. -/
theorem entry (o : Fin 360) :
    min (Scalar.select (IntOp.cmpi .slt (lit0 o) 0#32) (IntOp.addi (lit0 o) 360#32) (lit0 o)).toInt.toNat (360 - 1)
      = (srcFlat o).val := by
  revert o
  decide +kernel

end Cert.KernelIdeal.Table
-- ==== Proof.HostPre.lean ====
/-
  What the region finds in the three arrays the host code prepares before it.

  Before the region the host code computes, from the argument arrays alone: the row of negated squared widths
  (−σ_h², as a [1, 256] array), the row of squared centre norms (Σ_d C[h,d]², a host sum started from the zero word,
  as a [1, 256] array), and the weight matrix with its rows reordered by the table, transposed to [256, 360] (and
  changed to a narrower float format, which is the identity on the extended reals).  Each is read here at an entry.
-/
import proofs.«136110_j66649302499334_2_alg».proof.Proof.Gen.KernelIdeal.Frame
import proofs.«136110_j66649302499334_2_alg».proof.Proof.Spec
import proofs.«136110_j66649302499334_2_alg».proof.Proof.LibGatherRows
import proofs.«136110_j66649302499334_2_alg».proof.Proof.Table
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.Prelude

open Cert.KernelIdeal Cert.KernelIdeal.Gen Idealize.ShloMosaic Idealize.ShloMosaic.TcCoe Idealize.SL.Sem
open Idealize.ShloMosaic.StableHlo Idealize.ShloMosaic.ValueIdx Cert.Rbf

variable (m : (ℓ : Loc nD τ sig) → Buf (Elt Ideal) ℓ)

/-- The four argument arrays as launched on core `c`, as functions into the extended reals: the samples, -/
abbrev xs (c : Dev nD) : (⟨2, ![131072, 60]⟩ : Shape).Idx → EReal := m ((c : Thread nD τ).loc main_arg0)
/-- the centres, -/
abbrev cs (c : Dev nD) : (⟨2, ![256, 60]⟩ : Shape).Idx → EReal := m ((c : Thread nD τ).loc main_arg1)
/-- the widths, -/
abbrev ss (c : Dev nD) : (⟨1, ![256]⟩ : Shape).Idx → EReal := m ((c : Thread nD τ).loc main_arg2)
/-- the weights. -/
abbrev ws (c : Dev nD) : (⟨2, ![360, 256]⟩ : Shape).Idx → EReal := m ((c : Thread nD τ).loc main_arg3)

/-! ## The negated squared widths -/

theorem negs_eq (c : Dev nD) :
    V m c main_call0_v14 = shapeCast S1x256 (Host.negf (F := Ideal) (mulf (F := Ideal) (φ := .f32)
      (m ((c : Thread nD τ).loc main_arg2)) (m ((c : Thread nD τ).loc main_arg2)))) shapeCasts_S256_S1x256 := by
  show StableHlo.after hostOps0 (fun b => m (c, b)) (Proc.devRef .tc main_call0_v14) = _
  after_results
  rfl

/-- Entry (0, h) of the row is −σ_h². -/
theorem negs_apply (c : Dev nD) (h : Fin 256) :
    V m c main_call0_v14 (ix2 (0 : Fin 1) h)
      = -(ss m c (ix1 h) * ss m c (ix1 h)) := by
  rw [negs_eq]
  exact shapeCast_a_1a_apply _ _ 0 h

/-! ## The squared centre norms -/

theorem c2_eq (c : Dev nD) :
    V m c main_call0_v11 = shapeCast S1x256 (Host.reduceAdd (F := Ideal) (mulf (F := Ideal) (φ := .f32)
      (m ((c : Thread nD τ).loc main_arg1)) (m ((c : Thread nD τ).loc main_arg1))) (constant (F := Ideal) S_ .f32 0x00000000#32)
      reducesTo_S256x60_S256_d1 h_S_) shapeCasts_S256_S1x256 := by
  show StableHlo.after hostOps0 (fun b => m (c, b)) (Proc.devRef .tc main_call0_v11) = _
  after_results
  rfl

/-- A host sum over the columns of a 256 × 60 matrix, started from the zero word, at row h. -/
theorem row_sum (y : FVec Ideal S256x60 .f32) (h : Fin 256) :
    Host.reduceAdd (F := Ideal) y (constant (F := Ideal) S_ .f32 0x00000000#32) reducesTo_S256x60_S256_d1 h_S_ (ix1 h)
      = ∑ d : Fin 60, y (ix2 h d) := by
  simp only [Host.reduceAdd, Ideal.hostReduceAdd_def]
  rw [Ideal.hostReduceAdd_single reducesTo_S256x60_S256_d1 (by decide)]
  refine (congrArg (· + _) (Ideal.ofBits_zero_f32)).trans ((zero_add _).trans ?_)
  refine Finset.sum_congr rfl fun k _ => ?_
  exact congrArg y (funext fun a => Fin.ext (by match a with | ⟨0, _⟩ => rfl | ⟨1, _⟩ => rfl))

/-- Entry (0, h) of the row is the squared norm of centre h. -/
theorem c2_apply (c : Dev nD) (h : Fin 256) :
    V m c main_call0_v11 (ix2 (0 : Fin 1) h)
      = ∑ d : Fin 60, cs m c (ix2 h d) * cs m c (ix2 h d) := by
  rw [c2_eq]
  refine (shapeCast_a_1a_apply _ _ 0 h).trans ?_
  exact row_sum _ h

/-! ## The reordered, transposed weights -/

/-- The table of row numbers after the sign normalisation, as a [360, 1] array of start indices. -/
def rowIdx : IVec S360x1 32 :=
  broadcastInDim S360x1 ![0] bcast_S360_S360x1_0
    (select (cmpi .slt (fun i => lit0 (S360.rowMajor i)) (broadcastInDim S360 ![] bcast_S_S360 (constantI S_ 32 0#32)))
      (addi (fun i => lit0 (S360.rowMajor i)) (broadcastInDim S360 ![] bcast_S_S360 (constantI S_ 32 360#32)))
      (fun i => lit0 (S360.rowMajor i)))

theorem wt_eq (c : Dev nD) :
    V m c main_call0_v8 = truncf (F := Ideal) .bf16 (transpose S256x360 [1, 0]
      (Host.gather gather_S360x256_S360x1_S360x256_1_0_n_n_0_1_1256 (m ((c : Thread nD τ).loc main_arg3)) rowIdx)
      transposes_S360x256_S256x360_1_0) bitsLt_bf16_f32 := by
  show StableHlo.after hostOps0 (fun b => m (c, b)) (Proc.devRef .tc main_call0_v8) = _
  after_results
  rfl

/-- The start index of result row o. -/
theorem rowIdx_apply (o : Fin 360) :
    rowIdx (ix2 o (0 : Fin 1))
      = Scalar.select (IntOp.cmpi .slt (lit0 o) 0#32) (IntOp.addi (lit0 o) 360#32) (lit0 o) := by
  unfold rowIdx
  refine (broadcastInDim_apply _ bcast_S360_S360x1_0 _ (ix2 o (0 : Fin 1)) (ix1 o) (fun a => by
    match a with
    | ⟨0, _⟩ => show o.val = if (360 : Nat) = 1 then 0 else o.val; rw [if_neg (by decide)])).trans ?_
  have e : S360.rowMajor (ix1 o) = o := Fin.ext (Shape.rowMajor_val_one _)
  show Scalar.select (IntOp.cmpi .slt (lit0 (S360.rowMajor (ix1 o))) 0#32) (IntOp.addi (lit0 (S360.rowMajor (ix1 o))) 360#32)
    (lit0 (S360.rowMajor (ix1 o))) = _
  rw [e]

/-- Entry (h, o) of the prepared weights is the weight of unit h for the feature column o shows. -/
theorem wt_apply (c : Dev nD) (h : Fin 256) (o : Fin 360) :
    V m c main_call0_v8 (ix2 h o) = ws m c (ix2 (srcFlat o) h) := by
  rw [wt_eq]
  show transpose S256x360 [1, 0]
    (Host.gather gather_S360x256_S360x1_S360x256_1_0_n_n_0_1_1256 (ws m c) rowIdx) transposes_S360x256_S256x360_1_0 (ix2 h o) = _
  refine (transpose_ix2_apply (a := 360) (b := 256) _ transposes_S360x256_S256x360_1_0 h o).trans ?_
  refine (Cert.LibGatherRows.gather_rows_apply (N := 360) (C := 256) (R := 360) (by decide)
    gather_S360x256_S360x1_S360x256_1_0_n_n_0_1_1256_wf _ rowIdx o h).trans ?_
  refine congrArg _ (ix2_of_vals _ _ _ ?_ rfl)
  show min (rowIdx (ix2 o (0 : Fin 1))).toInt.toNat (360 - 1) = (srcFlat o).val
  rw [rowIdx_apply]
  exact Cert.KernelIdeal.Table.entry o

end Cert.KernelIdeal.Prelude

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.Payload.lean ====
/-
  The kernel body's one stored value, read at an entry.

  At a grid point the body holds a block of 8192 sample rows `x0`, the centres `x1`, the row of squared centre norms
  `c2`, the row of negated squared widths `ns` and the reordered, transposed weights `wt` ([256, 360]).  Its stored
  value at (p, o) is

      Σ_h exp (ns[0,h] · max (Σ_d x0[p,d]² + c2[0,h] − 2 · Σ_d x0[p,d]·x1[h,d], 0)) · wt[h, o] :

  a row sum of squares kept as a column and spread over the 256 units, a product with the transposed centres into a
  zero accumulator, two rows spread over the 8192 samples, pointwise arithmetic, and a second product into a zero
  accumulator (a change of float format is the identity on the extended reals).
-/
import proofs.«136110_j66649302499334_2_alg».proof.Proof.Gen.KernelIdeal.Skeleton
import proofs.«136110_j66649302499334_2_alg».proof.Proof.Spec
import proofs.«136110_j66649302499334_2_alg».proof.Proof.LibPlainDot
import proofs.«136110_j66649302499334_2_alg».proof.Proof.LibColumn
import proofs.«136110_j66649302499334_2_alg».proof.Proof.LibAxisReduce
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Rbf

/-- A [1, 256] row, cast to its own shape and spread over 8192 rows, reads at (p, h) the row at h. -/
theorem row_spread (v : Vec Ideal S1x256 .f32) (p : Fin 8192) (h : Fin 256) :
    broadcastTo S8192x256 (shapeCast S1x256 v shapeCasts_S1x256_S1x256) broadcasts_S1x256_S8192x256 (ix2 p h)
      = v (ix2 (0 : Fin 1) h) :=
  (broadcastTo_1b_ab_apply _ _ p h).trans (congrFun (shapeCast_self v _) _)

/-- The squared norm of each sample row, kept as a column and spread over 256 columns, reads at (p, h) the
    sum of squares of row p. -/
theorem sq_norm (x0 : Vec Ideal S8192x60 .f32) (p : Fin 8192) (h : Fin 256) :
    broadcastTo S8192x256 (shapeCast S8192x1 (multiReduction (F := Ideal) .add [1] S8192 (mulf (F := Ideal) x0 x0) 0x00000000#32
        reduces_S8192x60_S8192 (.inl rfl) rfl) shapeCasts_S8192_S8192x1) broadcasts_S8192x1_S8192x256 (ix2 p h)
      = ∑ d : Fin 60, x0 (ix2 p d) * x0 (ix2 p d) :=
  (Cert.LibColumn.broadcastTo_a1_ab_apply _ _ p h).trans
    ((Cert.LibColumn.shapeCast_a_a1_apply _ _ p 0).trans
      (Cert.LibAxisReduce.add_cols_apply (mulf (F := Ideal) x0 x0) _ _ _ _ p))

/-- The product of the sample block with the transposed centres, into a zero accumulator, reads at (p, h) the
    inner product of sample row p and centre h. -/
theorem cross (x0 : Vec Ideal S8192x60 .f32) (x1 : Vec Ideal S256x60 .f32) (p : Fin 8192) (h : Fin 256) :
    matmul (F := Ideal) (φ₁ := .f32) (φ₂ := .f32) dot_S8192x60_S60x256_S8192x256_1_0_0_1_n_n none x0
        (transpose S60x256 [1, 0] x1 transposes_S256x60_p1_0_S60x256) (constant (F := Ideal) S8192x256 .f32 0x00000000#32) (ix2 p h)
      = ∑ d : Fin 60, x0 (ix2 p d) * x1 (ix2 h d) := by
  refine (Cert.LibPlainDot.matmul_zero_apply (M := 8192) (K := 60) (N := 256) none x0 _ p h).trans ?_
  exact Finset.sum_congr rfl fun d _ => congrArg (x0 (ix2 p d) * ·) (transpose_ix2_apply x1 _ d h)

/-- THE STORED VALUE at (p, o). -/
theorem pay_apply (x0 : Vec Ideal S8192x60 .f32) (x1 : Vec Ideal S256x60 .f32) (c2 ns : Vec Ideal S1x256 .f32)
    (wt : Vec Ideal S256x360 .bf16) (p : Fin 8192) (o : Fin 360) :
    k0_pay1 x0 x1 c2 ns wt (ix2 p o)
      = ∑ h : Fin 256, Ideal.exp (ns (ix2 (0 : Fin 1) h) * max ((∑ d : Fin 60, x0 (ix2 p d) * x0 (ix2 p d))
          + c2 (ix2 (0 : Fin 1) h) - two * ∑ d : Fin 60, x0 (ix2 p d) * x1 (ix2 h d)) 0) * wt (ix2 h o) := by
  unfold k0_pay1
  refine (Cert.LibPlainDot.matmul_zero_apply (M := 8192) (K := 256) (N := 360) none _ _ p o).trans ?_
  refine Finset.sum_congr rfl fun h _ => ?_
  refine congrArg₂ (· * ·) ?_ (congrFun (shapeCast_self wt _) _)
  exact congrArg Ideal.exp (congrArg₂ (· * ·) (row_spread ns p h)
    (congrArg₂ max (congrArg₂ (· - ·) (congrArg₂ (· + ·) (sq_norm x0 p h) (row_spread c2 p h))
      (congrArg (two * ·) (cross x0 x1 p h))) Ideal.ofBits_zero_f32))

end Cert.KernelIdeal.Body

end
-- ==== Proof.Blocks.lean ====
/-
  The kernel's output array after the region, and the program's result.

  The grid has 16 points; point t holds sample rows 8192·t … 8192·t + 8191 and the whole of the four other input
  arrays, and writes back rows 8192·t … of the [131072, 360] output array.  What it writes is, entry by entry, the
  array `features` of Spec.lean (the mixed features in table order) restricted to its rows — the body's stored value
  (Payload.lean) over the blocks read where the rectangles say (HostPre.lean for the three prepared arrays).  The 16
  row blocks cover the output array, so the array ends at `features`; the one host line after the region views its
  360 columns as 30 × 12, which is the layer.
-/
import proofs.«136110_j66649302499334_2_alg».proof.Proof.HostPre
import proofs.«136110_j66649302499334_2_alg».proof.Proof.Payload

noncomputable section

open scoped BigOperators

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx Cert.Rbf Cert.KernelIdeal.Prelude
open Idealize.ShloMosaic.Pipeline (Dat)

/-! ## One block, as a function of the arrays it was cut from -/

/-- If the five loaded blocks are the rows 8192·T … of the samples, the centres, the negated squared widths, the
    squared centre norms and the reordered transposed weights, the stored value at (p, o) is `features` at
    (8192·T + p, o). -/
theorem block_value (x0 : Vec Ideal S8192x60 .f32) (x1 : Vec Ideal S256x60 .f32) (c2 ns : Vec Ideal S1x256 .f32)
    (wt : Vec Ideal S256x360 .bf16)
    (x : (⟨2, ![131072, 60]⟩ : Shape).Idx → EReal) (cn : (⟨2, ![256, 60]⟩ : Shape).Idx → EReal)
    (s : (⟨1, ![256]⟩ : Shape).Idx → EReal) (W : (⟨2, ![360, 256]⟩ : Shape).Idx → EReal)
    (T : ℕ) (p : Fin 8192) (o : Fin 360) (hb : T * 8192 + p.val < 131072)
    (h0 : ∀ d : Fin 60, x0 (ix2 p d) = x (ix2 ⟨T * 8192 + p.val, hb⟩ d))
    (h1 : ∀ (h : Fin 256) (d : Fin 60), x1 (ix2 h d) = cn (ix2 h d))
    (h2 : ∀ h : Fin 256, ns (ix2 (0 : Fin 1) h) = -(s (ix1 h) * s (ix1 h)))
    (h3 : ∀ h : Fin 256, c2 (ix2 (0 : Fin 1) h) = ∑ d : Fin 60, cn (ix2 h d) * cn (ix2 h d))
    (h4 : ∀ h : Fin 256, wt (ix2 h o) = W (ix2 (srcFlat o) h)) :
    k0_pay1 x0 x1 c2 ns wt (ix2 p o) = features x cn s W (ix2 ⟨T * 8192 + p.val, hb⟩ o) := by
  rw [Cert.KernelIdeal.Body.pay_apply]
  unfold features mix gauss
  refine Finset.sum_congr rfl fun h _ => ?_
  simp only [h0, h1, h2, h3, h4]

variable (m : (ℓ : Loc nD τ sig) → Buf (Elt Ideal) ℓ) (ρ : Dev nD → PrngReg)

/-! ## The blocks of the windows -/

theorem hz : (![0, 0] : Fin 2 → Nat) = fun _ => 0 := funext fun a => by fin_cases a <;> rfl

/-- The printed index maps, decided over the grid: the samples' and the output's block index is the point's number on
    the row axis, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 16 := lt_of_lt_of_eq t.isLt N_0

/-- The sample block at point t, read at (p, d), is the sample array at row 8192·t + p. -/
theorem read_samples (c : Dev nD) (t : Fin cfg0.N) (p : Fin 8192) (d : Fin 60) (hb : t.val * 8192 + p.val < 131072) :
    iblk m c 0 t (ix2 p d) = xs m c (ix2 ⟨t.val * 8192 + p.val, hb⟩ d) := by
  obtain ⟨e0, e1, -⟩ := idx_facts t
  show V m c main_arg0 (((cfg0.win 0).blk t).view.emb (ix2 p d)) = _
  rw [V_main_arg0]
  refine congrArg (xs m c) (ix2_of_vals (n0 := 131072) (n1 := 60) _ _ _ ?_ ?_)
  · show win0_0.index t (0 : Fin 2) * 8192 + 1 * p.val = t.val * 8192 + p.val
    omega
  · show win0_0.index t (1 : Fin 2) * 60 + 1 * d.val = d.val
    omega

/-- The centres' block at any point is the whole array. -/
theorem read_centres (c : Dev nD) (t : Fin cfg0.N) (h : Fin 256) (d : Fin 60) :
    iblk m c 1 t (ix2 h d) = cs m c (ix2 h d) := by
  obtain ⟨-, -, e0, e1, -⟩ := idx_facts t
  show V m c main_arg1 (((cfg0.win 1).blk t).view.emb (ix2 h d)) = _
  rw [V_main_arg1]
  refine congrArg (cs m c) (ix2_of_vals (n0 := 256) (n1 := 60) _ _ _ ?_ ?_)
  · show win0_1.index t (0 : Fin 2) * 256 + 1 * h.val = h.val
    omega
  · show win0_1.index t (1 : Fin 2) * 60 + 1 * d.val = d.val
    omega

/-- The block of negated squared widths at any point is the whole row. -/
theorem read_negs (c : Dev nD) (t : Fin cfg0.N) (h : Fin 256) :
    iblk m c 2 t (ix2 (0 : Fin 1) h) = -(ss m c (ix1 h) * ss m c (ix1 h)) := by
  obtain ⟨-, -, -, -, e0, e1, -⟩ := idx_facts t
  show V m c main_call0_v14 (((cfg0.win 2).blk t).view.emb (ix2 (0 : Fin 1) h)) = _
  refine Eq.trans (congrArg (V m c main_call0_v14) (ix2_of_vals (n0 := 1) (n1 := 256) _ (0 : Fin 1) h ?_ ?_)) (negs_apply m c h)
  · show win0_2.index t (0 : Fin 2) * 1 + 1 * 0 = 0
    omega
  · show win0_2.index t (1 : Fin 2) * 256 + 1 * h.val = h.val
    omega

/-- The block of squared centre norms at any point is the whole row. -/
theorem read_norms (c : Dev nD) (t : Fin cfg0.N) (h : Fin 256) :
    iblk m c 3 t (ix2 (0 : Fin 1) h) = ∑ d : Fin 60, cs m c (ix2 h d) * cs m c (ix2 h d) := by
  obtain ⟨-, -, -, -, -, -, e0, e1, -⟩ := idx_facts t
  show V m c main_call0_v11 (((cfg0.win 3).blk t).view.emb (ix2 (0 : Fin 1) h)) = _
  refine Eq.trans (congrArg (V m c main_call0_v11) (ix2_of_vals (n0 := 1) (n1 := 256) _ (0 : Fin 1) h ?_ ?_)) (c2_apply m c h)
  · show win0_3.index t (0 : Fin 2) * 1 + 1 * 0 = 0
    omega
  · show win0_3.index t (1 : Fin 2) * 256 + 1 * h.val = h.val
    omega

/-- The block of prepared weights at any point is the whole array. -/
theorem read_weights (c : Dev nD) (t : Fin cfg0.N) (h : Fin 256) (o : Fin 360) :
    iblk m c 4 t (ix2 h o) = ws m c (ix2 (srcFlat o) h) := by
  obtain ⟨-, -, -, -, -, -, -, -, e0, e1, -⟩ := idx_facts t
  show V m c main_call0_v8 (((cfg0.win 4).blk t).view.emb (ix2 h o)) = _
  refine Eq.trans (congrArg (V m c main_call0_v8) (ix2_of_vals (n0 := 256) (n1 := 360) _ h o ?_ ?_)) (wt_apply m c h o)
  · show win0_4.index t (0 : Fin 2) * 256 + 1 * h.val = h.val
    omega
  · show win0_4.index t (1 : Fin 2) * 360 + 1 * o.val = o.val
    omega

/-! ## What a point writes back, and the array after the region -/

/-- WHAT POINT `t` WRITES BACK is block `t` of `features` of the argument arrays. -/
theorem flushed_eq (c : Dev nD) (t : Fin cfg0.N) :
    (dats m 0 c).flushed 5 t
      = ((cfg0.win 5).blk t).view.read (Elt Ideal) (features (xs m c) (cs m c) (ss m c) (ws m c)) := by
  show (cfg0.win 5).cut (grid0.coords t) ((dats m 0 c).after 5 t) = _
  rw [after0_5]
  unfold out0_5
  rw [View.canon_unit_zero hz]
  simp only [View.ld_unit_zero (S := S8192x60) hz, View.ld_unit_zero (S := S256x60) hz,
    View.ld_unit_zero (S := S1x256) hz, View.ld_unit_zero (S := S256x360) hz]
  obtain ⟨-, -, -, -, -, -, -, -, -, -, e0, e1⟩ := idx_facts t
  have ht := point_lt t
  funext j
  have hj0 : (j 0).val < 8192 := (j 0).isLt
  have hj1 : (j 1).val < 360 := (j 1).isLt
  have hb : t.val * 8192 + (j 0).val < 131072 := by omega
  show k0_pay1 (iblk m c 0 t) (iblk m c 1 t) (iblk m c 3 t) (iblk m c 2 t) (iblk m c 4 t) j
    = features (xs m c) (cs m c) (ss m c) (ws m c) (((cfg0.win 5).blk t).view.emb j)
  have ej : j = ix2 (⟨(j 0).val, hj0⟩ : Fin 8192) (⟨(j 1).val, hj1⟩ : Fin 360) :=
    funext fun a => Fin.ext (by match a with | ⟨0, _⟩ => rfl | ⟨1, _⟩ => rfl)
  have eo : ((cfg0.win 5).blk t).view.emb j
      = ix2 (⟨t.val * 8192 + (j 0).val, hb⟩ : Fin 131072) (⟨(j 1).val, hj1⟩ : Fin 360) :=
    ix2_of_vals (n0 := 131072) (n1 := 360) _ _ _
      (by show win0_5.index t (0 : Fin 2) * 8192 + 1 * (j 0).val = t.val * 8192 + (j 0).val; omega)
      (by show win0_5.index t (1 : Fin 2) * 360 + 1 * (j 1).val = (j 1).val; omega)
  rw [eo]
  refine (congrArg (k0_pay1 (iblk m c 0 t) (iblk m c 1 t) (iblk m c 3 t) (iblk m c 2 t) (iblk m c 4 t)) ej).trans ?_
  exact block_value (iblk m c 0 t) (iblk m c 1 t) (iblk m c 3 t) (iblk m c 2 t) (iblk m c 4 t)
    (xs m c) (cs m c) (ss m c) (ws m c) t.val ⟨(j 0).val, hj0⟩ ⟨(j 1).val, hj1⟩ hb
    (fun d => read_samples m c t ⟨(j 0).val, hj0⟩ d hb) (fun h d => read_centres m c t h d)
    (fun h => read_negs m c t h) (fun h => read_norms m c t h) (fun h => read_weights m c t h ⟨(j 1).val, hj1⟩)

/-- An index of the output array is in point `t`'s block iff each coordinate is in the block's range on its axis. -/
theorem mem_blk (t : Fin cfg0.N) (i : S131072x360.Idx) :
    i ∈ ((cfg0.win 5).blk t).view.set ↔ ∀ a : Fin 2, win0_5.index t a * S8192x360.size a ≤ (i a).val
      ∧ (i a).val < win0_5.index t a * S8192x360.size a + S8192x360.size a := by
  show i ∈ ((View.whole main_call0_v15).slice (win0_5.rect t)).set ↔ _
  rw [View.set_slice_whole, Rect.mem_set_unit]
  exact Iff.rfl

/-- Every index of the output array is in the block of the point that holds its row. -/
theorem cover (i : S131072x360.Idx) :
    ∃ t : Fin cfg0.N, (cfg0.win 5).flush t = true ∧ i ∈ ((cfg0.win 5).blk t).view.set := by
  have hi0 : (i 0).val < 131072 := (i 0).isLt
  have hi1 : (i 1).val < 360 := (i 1).isLt
  have hN : (i 0).val / 8192 < cfg0.N := lt_of_lt_of_eq (by omega : (i 0).val / 8192 < 16) N_0.symm
  obtain ⟨-, -, -, -, -, -, -, -, -, -, e0, e1⟩ := idx_facts ⟨(i 0).val / 8192, hN⟩
  have e0' : win0_5.index ⟨(i 0).val / 8192, hN⟩ (0 : Fin 2) = (i 0).val / 8192 := e0
  refine ⟨⟨(i 0).val / 8192, hN⟩, flush0_5 _, ?_⟩
  rw [mem_blk]
  intro a
  match a with
  | ⟨0, _⟩ =>
    show win0_5.index ⟨(i 0).val / 8192, hN⟩ (0 : Fin 2) * 8192 ≤ (i 0).val
      ∧ (i 0).val < win0_5.index ⟨(i 0).val / 8192, hN⟩ (0 : Fin 2) * 8192 + 8192
    omega
  | ⟨1, _⟩ =>
    show win0_5.index ⟨(i 0).val / 8192, hN⟩ (1 : Fin 2) * 360 ≤ (i 1).val
      ∧ (i 1).val < win0_5.index ⟨(i 0).val / 8192, hN⟩ (1 : Fin 2) * 360 + 360
    omega

/-- THE OUTPUT ARRAY after the region is `features` of the argument arrays. -/
theorem final (c : Dev nD) :
    (dats m 0 c).arrAt 5 cfg0.N = features (xs m c) (cs m c) (ss m c) (ws m c) :=
  (dats m 0 c).arrAt_eq_of_cover 5 _ (fun t _ => flushed_eq m c t) cover

end Cert.KernelIdeal.Blocks

end
-- ==== Proof.Result.lean ====
/-
  The idealized kernel's run, with its result named.

  After the region the program has one host line: the [131072, 360] output array viewed as [131072, 30, 12].  Entry
  (b, r, q) of the view is entry (b, 12·r + q) of the array (same row-major position), which is feature
  `srcFlat (12·r + q) = srcRow r q` of sample b: the layer.  The run itself, and that the four argument arrays end
  unchanged, is the generated frame run.
-/
import proofs.«136110_j66649302499334_2_alg».proof.Proof.Blocks

noncomputable section

open scoped BigOperators

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.Rbf Cert.KernelIdeal.Prelude
open Idealize.ShloMosaic.Pipeline (Dat)

variable (m : (ℓ : Loc nD τ sig) → Buf (Elt Ideal) ℓ) (ρ : Dev nD → PrngReg)

/-- The [131072, 360] array of features in table order, viewed as [131072, 30, 12], is the layer. -/
theorem view_eq (x : (⟨2, ![131072, 60]⟩ : Shape).Idx → EReal) (cn : (⟨2, ![256, 60]⟩ : Shape).Idx → EReal)
    (s : (⟨1, ![256]⟩ : Shape).Idx → EReal) (W : (⟨2, ![360, 256]⟩ : Shape).Idx → EReal) :
    shapeCast S131072x30x12 (features x cn s W) shapeCasts_S131072x360_S131072x30x12 = layer x cn s W := by
  funext i
  obtain ⟨b, r, q, rfl⟩ : ∃ (b : Fin 131072) (r : Fin 30) (q : Fin 12), i = ix3 b r q := ⟨i 0, i 1, i 2, eq_ix3 i⟩
  have hr := r.isLt; have hq := q.isLt
  refine (shapeCast_apply _ shapeCasts_S131072x360_S131072x30x12 (ix3 b r q)
    (ix2 b (⟨r.val * 12 + q.val, by omega⟩ : Fin 360)) ?_).trans ?_
  · rw [Shape.rowMajor_val_two, Shape.rowMajor_val_three]
    show b.val * 360 + (r.val * 12 + q.val) = (b.val * 30 + r.val) * 12 + q.val
    omega
  · show mix _ _ _ (weightsOf W (srcFlat ⟨r.val * 12 + q.val, _⟩)) = mix _ _ _ (weightsOf W (srcRow r q))
    rw [srcFlat_flat r q _ rfl]

/-- The program's result buffer after the host line that follows the region. -/
theorem tail_eq (c : Dev nD) :
    Pipeline.afterTail₀ cfgs (dats m) 0 (V0 m) [hostOps1] c main_v0 = layer (xs m c) (cs m c) (ss m c) (ws m c) := by
  have hW : Pipeline.withArrays (cfgs 0).spec c (V0 m c) (fun w => (dats m 0 c).arrAt w (cfgs 0).N)
      (Proc.devRef .tc main_call0_v15) = features (xs m c) (cs m c) (ss m c) (ws m c) :=
    (Pipeline.withArrays_arr spec0 launch0.win.arr_inj c _ _ 5).trans (Blocks.final m c)
  unfold Pipeline.afterTail₀
  show StableHlo.after hostOps1 _ (Proc.devRef .tc main_v0) = _
  after_results
  show shapeCast S131072x30x12 (Pipeline.withArrays (cfgs 0).spec c (V0 m c) (fun w => (dats m 0 c).arrAt w (cfgs 0).N)
      (Proc.devRef .tc main_call0_v15)) shapeCasts_S131072x360_S131072x30x12 = _
  rw [hW]
  exact view_eq _ _ _ _

/-- THE RUN: every weakly fair execution of the idealized kernel terminates with its result at the layer of the
    argument arrays, and those unchanged. -/
theorem run : θ_run defs (onTc (τ := τ) (main (F := Ideal))) ⟨m, fun _ => 0, ρ⟩ fun r => ∀ c : Dev nD,
      r.2.mem ((c.tc : Thread nD τ).loc main_v0) = layer (xs m c) (cs m c) (ss m c) (ws m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The certificate: a radial-basis layer followed by a dense mixing, as one Pallas kernel, against its jnp reference.

  Both programs compute, for sample b, unit h and feature o,
      φ_h(x_b) = exp (−σ_h² · max (‖x_b‖² + ‖c_h‖² − 2⟨x_b, c_h⟩, 0)),   out_o(x_b) = Σ_h φ_h(x_b) · W[o, h],
  and show the 360 features of a sample as a 30 × 12 table whose entry (r, q) is feature 36·(r/3) + 3·q + r%3.
  The reference lays the table out after its second contraction (view as [10, 12, 3], exchange the last two axes,
  flatten); the kernel reorders the ROWS of W by the table before the contraction, so that its raw output is already
  in table order.  On the extended reals the two results are the same function of the four arrays, entry by entry:
  every sum is the same finite sum, the contractions and row sums of either side differing only in tiling and in a
  zero word added in front, and no law that needs finiteness is used, so the precondition is never opened.

  The three frames are the generated ones (the reference's is its generated run with the result dropped);
  `preserves` is trivial (the idealization rewrote nothing); `algebraic` sets the kernel's run (Result.lean) beside the
  reference's generated run read entry by entry (RefSide.lean), both at `Cert.Rbf.layer` (Spec.lean).
-/
import proofs.«136110_j66649302499334_2_alg».proof.Defs
import proofs.«136110_j66649302499334_2_alg».proof.Proof.Gen.Kernel
import proofs.«136110_j66649302499334_2_alg».proof.Proof.Gen.Kernel.Frame
import proofs.«136110_j66649302499334_2_alg».proof.Proof.Gen.KernelIdeal
import proofs.«136110_j66649302499334_2_alg».proof.Proof.Gen.KernelIdeal.Frame
import proofs.«136110_j66649302499334_2_alg».proof.Proof.Gen.ReferenceIdeal
import proofs.«136110_j66649302499334_2_alg».proof.Proof.Gen.ReferenceIdeal.Run
import proofs.«136110_j66649302499334_2_alg».proof.Proof.Gen.ReferenceIdeal.Read
import proofs.«136110_j66649302499334_2_alg».proof.Proof.Gen.Pre_finite_inputs
import proofs.«136110_j66649302499334_2_alg».proof.Proof.RefSide
import proofs.«136110_j66649302499334_2_alg».proof.Proof.Result

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end at the layer of the argument arrays, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
